-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768x32x32 : Shape := ⟨4, ![32, 768, 32, 32]⟩
abbrev S192x768 : Shape := ⟨2, ![192, 768]⟩
abbrev S192 : Shape := ⟨1, ![192]⟩
abbrev S768x192 : Shape := ⟨2, ![768, 192]⟩
abbrev S768 : Shape := ⟨1, ![768]⟩
abbrev S_ : Shape := ⟨0, ![]⟩

class Facts : Prop where
  bcast_S_S32x768x32x32 : S_.BroadcastsInDim S32x768x32x32 (![] : Fin 0 → Fin S32x768x32x32.rank)
  reducesTo_S32x768x32x32_S_d0_1_2_3 : S32x768x32x32.ReducesTo [0, 1, 2, 3] S_
  h_S_ : 0 < S_.numel
  bcast_S_S192x768 : S_.BroadcastsInDim S192x768 (![] : Fin 0 → Fin S192x768.rank)
  reducesTo_S192x768_S_d0_1 : S192x768.ReducesTo [0, 1] S_
  bcast_S_S192 : S_.BroadcastsInDim S192 (![] : Fin 0 → Fin S192.rank)
  reducesTo_S192_S_d0 : S192.ReducesTo [0] S_
  bcast_S_S768x192 : S_.BroadcastsInDim S768x192 (![] : Fin 0 → Fin S768x192.rank)
  reducesTo_S768x192_S_d0_1 : S768x192.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x192 1) : IVec S_ 1 :=
  let main_c_5 : IVec S_ 1 := constantI S_ 1 1#1
  let main_v17 : IVec S_ 1 := (fun x v => Host.reduce IntOp.andi x v reducesTo_S768x192_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S32x768x32x32 .f32) (main_arg1 : FVec F S192x768 .f32) (main_arg2 : FVec F S192 .f32) (main_arg3 : FVec F S768x192 .f32) (main_arg4 : FVec F S768 .f32) : IVec S_ 1 :=
  let main_v0 : FVec F S32x768x32x32 .f32 := Host.absf main_arg0
  let main_cst : FVec F S_ .f32 := constant S_ .f32 0x7F800000#32
  let main_v1 : FVec F S32x768x32x32 .f32 := broadcastInDim S32x768x32x32 ![] bcast_S_S32x768x32x32 main_cst
  let main_v2 : IVec S32x768x32x32 1 := cmpf .olt main_v0 main_v1
  let main_c : IVec S_ 1 := constantI S_ 1 1#1
  let main_v3 : IVec S_ 1 := (fun x v => Host.reduce IntOp.andi x v reducesTo_S32x768x32x32_S_d0_1_2_3 h_S_) main_v2 main_c
  let main_v4 : FVec F S192x768 .f32 := Host.absf main_arg1
  let main_cst_0 : FVec F S_ .f32 := constant S_ .f32 0x7F800000#32
  let main_v5 : FVec F S192x768 .f32 := broadcastInDim S192x768 ![] bcast_S_S192x768 main_cst_0
  let main_v6 : IVec S192x768 1 := cmpf .olt main_v4 main_v5
  let main_c_1 : IVec S_ 1 := constantI S_ 1 1#1
  let main_v7 : IVec S_ 1 := (fun x v => Host.reduce IntOp.andi x v reducesTo_S192x768_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S768x192 .f32 := Host.absf main_arg3
  let main_cst_4 : FVec F S_ .f32 := constant S_ .f32 0x7F800000#32
  let main_v15 : FVec F S768x192 .f32 := broadcastInDim S768x192 ![] bcast_S_S768x192 main_cst_4
  let main_v16 : IVec S768x192 1 := cmpf .olt main_v14 main_v15
  fn_part1 (F := F) main_arg4 main_v13 main_v16
-- ==== Kernel.lean ====
abbrev S32x768x32x32 : Shape := ⟨4, ![32, 768, 32, 32]⟩
abbrev S192x768 : Shape := ⟨2, ![192, 768]⟩
abbrev S192 : Shape := ⟨1, ![192]⟩
abbrev S768x192 : Shape := ⟨2, ![768, 192]⟩
abbrev S768 : Shape := ⟨1, ![768]⟩
abbrev S32x768x1024 : Shape := ⟨3, ![32, 768, 1024]⟩
abbrev S1x192 : Shape := ⟨2, ![1, 192]⟩
abbrev S1x768 : Shape := ⟨2, ![1, 768]⟩
abbrev S2x768x1024 : Shape := ⟨3, ![2, 768, 1024]⟩
abbrev S2x768 : Shape := ⟨2, ![2, 768]⟩
abbrev S2x192 : Shape := ⟨2, ![2, 192]⟩
abbrev S2x768x1 : Shape := ⟨3, ![2, 768, 1]⟩

abbrev nBuf : Space → Nat
  | .hbm => 14
  | .vmem => 8
  | .smem => 0
  | _ => 0

abbrev bufTy : (tb : Table) → Fin (tcTables nBuf tb) → BufTy
  | .hbm, ⟨0, _⟩ => ⟨S32x768x32x32, .f32⟩
  | .hbm, ⟨1, _⟩ => ⟨S192x768, .f32⟩
  | .hbm, ⟨2, _⟩ => ⟨S192, .f32⟩
  | .hbm, ⟨3, _⟩ => ⟨S768x192, .f32⟩
  | .hbm, ⟨4, _⟩ => ⟨S768, .f32⟩
  | .hbm, ⟨5, _⟩ => ⟨S32x768x1024, .f32⟩
  | .hbm, ⟨6, _⟩ => ⟨S768x192, .f32⟩
  | .hbm, ⟨7, _⟩ => ⟨S768x192, .bf16⟩
  | .hbm, ⟨8, _⟩ => ⟨S192x768, .f32⟩
  | .hbm, ⟨9, _⟩ => ⟨S192x768, .bf16⟩
  | .hbm, ⟨10, _⟩ => ⟨S1x192, .f32⟩
  | .hbm, ⟨11, _⟩ => ⟨S1x768, .f32⟩
  | .hbm, ⟨12, _⟩ => ⟨S32x768x1024, .f32⟩
  | .hbm, ⟨13, _⟩ => ⟨S32x768x32x32, .f32⟩
  | .local _ .vmem, ⟨0, _⟩ => ⟨S2x768x1024, .f32⟩
  | .local _ .vmem, ⟨1, _⟩ => ⟨S2x768x1024, .f32⟩
  | .local _ .vmem, ⟨2, _⟩ => ⟨S768x192, .bf16⟩
  | .local _ .vmem, ⟨3, _⟩ => ⟨S1x192, .f32⟩
  | .local _ .vmem, ⟨4, _⟩ => ⟨S192x768, .bf16⟩
  | .local _ .vmem, ⟨5, _⟩ => ⟨S1x768, .f32⟩
  | .local _ .vmem, ⟨6, _⟩ => ⟨S2x768x1024, .f32⟩
  | .local _ .vmem, ⟨7, _⟩ => ⟨S2x768x1024, .f32⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x768x32x32_S32x768x1024 : S32x768x32x32.ShapeCasts S32x768x1024
  transposes_S192x768_S768x192_1_0 : S192x768.Transposes [1, 0] S768x192
  bitsLt_bf16_f32 : FTy.bits .bf16 < FTy.bits .f32
  transposes_S768x192_S192x768_1_0 : S768x192.Transposes [1, 0] S192x768
  shapeCasts_S192_S1x192 : S192.ShapeCasts S1x192
  shapeCasts_S768_S1x768 : S768.ShapeCasts S1x768
  inb_S2x768x1024_S2x768x1024_0_0_0 : ∀ a, (![0, 0, 0] : Fin 3 → Nat) a + S2x768x1024.size a ≤ S2x768x1024.size a
  h_S2x768x1024 : 0 < S2x768x1024.numel
  shapeCasts_S2x768x1024_S2x768x1024 : S2x768x1024.ShapeCasts S2x768x1024
  reduces_S2x768x1024_S2x768 : S2x768x1024.Reduces [2] S2x768
  inb_S768x192_S768x192_0_0 : ∀ a, (![0, 0] : Fin 2 → Nat) a + S768x192.size a ≤ S768x192.size a
  h_S768x192 : 0 < S768x192.numel
  shapeCasts_S768x192_S768x192 : S768x192.ShapeCasts S768x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2x192 : S1x192.Broadcasts S2x192
  inb_S192x768_S192x768_0_0 : ∀ a, (![0, 0] : Fin 2 → Nat) a + S192x768.size a ≤ S192x768.size a
  h_S192x768 : 0 < S192x768.numel
  shapeCasts_S192x768_S192x768 : S192x768.ShapeCasts S192x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2x768 : S1x768.Broadcasts S2x768
  shapeCasts_S2x768_S2x768x1 : S2x768.ShapeCasts S2x768x1
  broadcasts_S2x768x1_S2x768x1024 : S2x768x1.Broadcasts S2x768x1024
  shapeCasts_S32x768x1024_S32x768x32x32 : S32x768x1024.ShapeCasts S32x768x32x32
  dot_S2x768_S768x192_S2x192_1_0_0_1_n_n_wf : DotDims.WF S2x768 S768x192 S2x192 [1] [0] [0] [1] [] []
  dot_S2x192_S192x768_S2x768_1_0_0_1_n_n_wf : DotDims.WF S2x192 S192x768 S2x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x768x1024.size a ≤ S32x768x1024.size a
  hwx0_0 : ∀ i : grid0.Coords, EltTy.bits .f32 = 32 ∨ (Rect.block (s := S32x768x1024) S2x768x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x192.size a ≤ S768x192.size a
  hwx0_1 : ∀ i : grid0.Coords, EltTy.bits .bf16 = 32 ∨ (Rect.block (s := S768x192) S768x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x768.size a ≤ S192x768.size a
  hwx0_3 : ∀ i : grid0.Coords, EltTy.bits .bf16 = 32 ∨ (Rect.block (s := S192x768) S192x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x768x1024.size a ≤ S32x768x1024.size a
  hwx0_5 : ∀ i : grid0.Coords, EltTy.bits .f32 = 32 ∨ (Rect.block (s := S32x768x1024) S2x768x1024.size (cc0_transform_5 i) (hinb0_5 i)).WholeWords (EltTy.packing .f32)

variable [Facts₀]

def dot_S2x768_S768x192_S2x192_1_0_0_1_n_n : DotDims S2x768 S768x192 S2x192 where
  lhsContracting := [1]
  rhsContracting := [0]
  lhsNonContracting := [0]
  rhsNonContracting := [1]
  lhsBatch := []
  rhsBatch := []
  wf := dot_S2x768_S768x192_S2x192_1_0_0_1_n_n_wf
def dot_S2x192_S192x768_S2x768_1_0_0_1_n_n : DotDims S2x192 S192x768 S2x768 where
  lhsContracting := [1]
  rhsContracting := [0]
  lhsNonContracting := [0]
  rhsNonContracting := [1]
  lhsBatch := []
  rhsBatch := []
  wf := dot_S2x192_S192x768_S2x768_1_0_0_1_n_n_wf

abbrev win0_0 : Pipeline.Window sig grid0 :=
  Pipeline.Window.ofSpec (Memref.whole main_v0) S2x768x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S192x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2x768x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_5 : Pipeline.Aliased win0 0 5

variable [Facts]
-- ==== ReferenceIdeal.lean ====
abbrev S32x768x32x32 : Shape := ⟨4, ![32, 768, 32, 32]⟩
abbrev S192x768 : Shape := ⟨2, ![192, 768]⟩
abbrev S192 : Shape := ⟨1, ![192]⟩
abbrev S768x192 : Shape := ⟨2, ![768, 192]⟩
abbrev S768 : Shape := ⟨1, ![768]⟩
abbrev S_ : Shape := ⟨0, ![]⟩
abbrev S32x768 : Shape := ⟨2, ![32, 768]⟩
abbrev S32x192 : Shape := ⟨2, ![32, 192]⟩
abbrev S1x192 : Shape := ⟨2, ![1, 192]⟩
abbrev S1x768 : Shape := ⟨2, ![1, 768]⟩
abbrev S32x768x1x1 : Shape := ⟨4, ![32, 768, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S192x768, .f32⟩
  | .hbm, ⟨2, _⟩ => ⟨S192, .f32⟩
  | .hbm, ⟨3, _⟩ => ⟨S768x192, .f32⟩
  | .hbm, ⟨4, _⟩ => ⟨S768, .f32⟩
  | .hbm, ⟨5, _⟩ => ⟨S_, .f32⟩
  | .hbm, ⟨6, _⟩ => ⟨S32x768, .f32⟩
  | .hbm, ⟨7, _⟩ => ⟨S_, .f32⟩
  | .hbm, ⟨8, _⟩ => ⟨S32x768, .f32⟩
  | .hbm, ⟨9, _⟩ => ⟨S32x768, .f32⟩
  | .hbm, ⟨10, _⟩ => ⟨S768x192, .f32⟩
  | .hbm, ⟨11, _⟩ => ⟨S32x192, .f32⟩
  | .hbm, ⟨12, _⟩ => ⟨S1x192, .f32⟩
  | .hbm, ⟨13, _⟩ => ⟨S32x192, .f32⟩
  | .hbm, ⟨14, _⟩ => ⟨S32x192, .f32⟩
  | .hbm, ⟨15, _⟩ => ⟨S32x192, .f32⟩
  | .hbm, ⟨16, _⟩ => ⟨S32x192, .f32⟩
  | .hbm, ⟨17, _⟩ => ⟨S_, .f32⟩
  | .hbm, ⟨18, _⟩ => ⟨S32x192, .f32⟩
  | .hbm, ⟨19, _⟩ => ⟨S32x192, .f32⟩
  | .hbm, ⟨20, _⟩ => ⟨S_, .f32⟩
  | .hbm, ⟨21, _⟩ => ⟨S32x192, .f32⟩
  | .hbm, ⟨22, _⟩ => ⟨S32x192, .f32⟩
  | .hbm, ⟨23, _⟩ => ⟨S32x192, .f32⟩
  | .hbm, ⟨24, _⟩ => ⟨S192x768, .f32⟩
  | .hbm, ⟨25, _⟩ => ⟨S32x768, .f32⟩
  | .hbm, ⟨26, _⟩ => ⟨S1x768, .f32⟩
  | .hbm, ⟨27, _⟩ => ⟨S32x768, .f32⟩
  | .hbm, ⟨28, _⟩ => ⟨S32x768, .f32⟩
  | .hbm, ⟨29, _⟩ => ⟨S32x768, .f32⟩
  | .hbm, ⟨30, _⟩ => ⟨S32x768, .f32⟩
  | .hbm, ⟨31, _⟩ => ⟨S_, .f32⟩
  | .hbm, ⟨32, _⟩ => ⟨S32x768, .f32⟩
  | .hbm, ⟨33, _⟩ => ⟨S32x768, .f32⟩
  | .hbm, ⟨34, _⟩ => ⟨S_, .f32⟩
  | .hbm, ⟨35, _⟩ => ⟨S32x768, .f32⟩
  | .hbm, ⟨36, _⟩ => ⟨S32x768, .f32⟩
  | .hbm, ⟨37, _⟩ => ⟨S32x768x1x1, .f32⟩
  | .hbm, ⟨38, _⟩ => ⟨S32x768x32x32, .f32⟩
  | .hbm, ⟨39, _⟩ => ⟨S32x768x32x32, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  reducesTo_S32x768x32x32_S32x768_d2_3 : S32x768x32x32.ReducesTo [2, 3] S32x768
  h_S_ : 0 < S_.numel
  bcast_S_S32x768 : S_.BroadcastsInDim S32x768 (![] : Fin 0 → Fin S32x768.rank)
  transposes_S192x768_S768x192_1_0 : S192x768.Transposes [1, 0] S768x192
  bcast_S192_S1x192_1 : S192.BroadcastsInDim S1x192 (![1] : Fin 1 → Fin S1x192.rank)
  bcast_S1x192_S32x192_0_1 : S1x192.BroadcastsInDim S32x192 (![0, 1] : Fin 2 → Fin S32x192.rank)
  bcast_S_S32x192 : S_.BroadcastsInDim S32x192 (![] : Fin 0 → Fin S32x192.rank)
  transposes_S768x192_S192x768_1_0 : S768x192.Transposes [1, 0] S192x768
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  bcast_S32x768_S32x768x1x1_0_1 : S32x768.BroadcastsInDim S32x768x1x1 (![0, 1] : Fin 2 → Fin S32x768x1x1.rank)
  bcast_S32x768x1x1_S32x768x32x32_0_1_2_3 : S32x768x1x1.BroadcastsInDim S32x768x32x32 (![0, 1, 2, 3] : Fin 4 → Fin S32x768x32x32.rank)
  dot_S32x768_S768x192_S32x192_1_0_0_1_n_n_wf : DotDims.WF S32x768 S768x192 S32x192 [1] [0] [0] [1] [] []
  dot_S32x192_S192x768_S32x768_1_0_0_1_n_n_wf : DotDims.WF S32x192 S192x768 S32x768 [1] [0] [0] [1] [] []

variable [Facts₀]

def dot_S32x768_S768x192_S32x192_1_0_0_1_n_n : DotDims S32x768 S768x192 S32x192 where
  lhsContracting := [1]
  rhsContracting := [0]
  lhsNonContracting := [0]
  rhsNonContracting := [1]
  lhsBatch := []
  rhsBatch := []
  wf := dot_S32x768_S768x192_S32x192_1_0_0_1_n_n_wf
def dot_S32x192_S192x768_S32x768_1_0_0_1_n_n : DotDims S32x192 S192x768 S32x768 where
  lhsContracting := [1]
  rhsContracting := [0]
  lhsNonContracting := [0]
  rhsNonContracting := [1]
  lhsBatch := []
  rhsBatch := []
  wf := dot_S32x192_S192x768_S32x768_1_0_0_1_n_n_wf

class Facts : Prop extends Facts₀ where

variable [Facts]
-- ==== Proof.LibKeepAxis.lean ====
/-
  Layout operations read at an index given by coordinates, for the forms a "keep the axis" reduction and a
  per-head broadcast along the lanes meet:

  • a matrix [a, c] viewed [a, 1, c] (a unit axis put in the middle), and that view broadcast to [a, b, c]:
    at (i, j, k) both read the matrix at (i, k) — what subtracting a row-wise maximum, or dividing by a row-wise
    sum taken over the middle axis, does;
  • an array [a, b, c] viewed [a, b, c, 1] (a trailing unit axis), and that view broadcast to [a, b, c, d]:
    at (i, j, k, l) both read the array at (i, j, k);
  • an array [a, b, c, d] viewed [a, b, e] with e = c * d (the last two axes merged): at (i, j, m) with
    m = d * k + l it reads the array at (i, j, k, l).

  Each is the library's general lemma for the operation (a shape cast reads the operand at the same row-major
  position; a broadcast reads it at the trailing coordinates, 0 on the operand's unit axes) with both indices
  written by coordinates and the arithmetic done.
-/
import Idealize.ShloMosaic.Lib.ValueIdx
import Idealize.ShloMosaic.Lib.Pipeline.Value

namespace Idealize.ShloMosaic.ValueIdx

open Idealize.ShloMosaic

variable {α : Type}

/-- A matrix [a, c] cast to [a, 1, c] reads, at (i, u, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An array [a, 1, c] broadcast to [a, b, c] reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (fun ax => by
    match ax with
    | ⟨0, _⟩ =>
      show i.val = if a = 1 then 0 else i.val
      split
      · have := i.isLt; omega
      · rfl
    | ⟨1, _⟩ => rfl
    | ⟨2, _⟩ =>
      show k.val = if c = 1 then 0 else k.val
      split
      · have := k.isLt; omega
      · rfl)

/-- An array [a, b, c] cast to [a, b, c, 1] reads, at (i, j, k, u), the array at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An array [a, b, c, 1] broadcast to [a, b, c, d] reads, at (i, j, k, l), the operand at (i, j, k, 0). -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) :=
  broadcastTo_apply x h _ _ (fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ =>
      show k.val = if c = 1 then 0 else k.val
      split
      · have := k.isLt; omega
      · rfl
    | ⟨3, _⟩ => rfl)

/-- An array [a, b, c, d] cast to [a, b, e] with `e = c * d` reads, at (i, j, m) with `m = d * k + l`, the array
    at (i, j, k, l): the last two axes laid end to end. -/
theorem shapeCast_abcd_abe_apply {a b c d e : ℕ} (x : (⟨4, ![a, b, c, d]⟩ : Shape).Idx → α)
    (h : (⟨4, ![a, b, c, d]⟩ : Shape).ShapeCasts ⟨3, ![a, b, e]⟩) (hcd : c * d = e)
    (i : Fin a) (j : Fin b) (k : Fin c) (l : Fin d) (m : Fin e) (hm : m.val = d * k.val + l.val) :
    shapeCast ⟨3, ![a, b, e]⟩ x h (ix3 i j m) = x (ix4 i j k l) :=
  shapeCast_apply x h _ _ (by
    rw [Shape.rowMajor_val_four, Shape.rowMajor_val_three]
    show ((i.val * b + j.val) * c + k.val) * d + l.val = (i.val * b + j.val) * e + m.val
    rw [hm, ← hcd]
    ring)

end Idealize.ShloMosaic.ValueIdx
-- ==== Proof.LibTrailingAxis.lean ====
/-
  Layout operations read at an index given by coordinates, for the forms a per-row statistic broadcast along a
  trailing axis meets, and for a trailing axis split in two:

  • a matrix [a, b] viewed [a, b, 1] (a unit axis put last), and that view broadcast to [a, b, c]: at (i, j, k)
    both read the matrix at (i, j) — what multiplying every entry of row (i, j) by one number per row does;
  • an array [a, b, e] viewed [a, b, c, d] with c * d = e (the last axis split in two): at (i, j, k, l) it reads
    the array at (i, j, m) with m = d * k + l, the row-major number of (k, l).

  Each is the general lemma for the operation (a shape cast reads the operand at the same row-major position; a
  broadcast reads it at the result's coordinates, 0 on the operand's unit axes) with both indices written by
  coordinates and the arithmetic done.
-/
import Idealize.ShloMosaic.Lib.ValueIdx
import Idealize.ShloMosaic.Lib.Pipeline.Value

namespace Cert.Lib.TrailingAxis

open Idealize.ShloMosaic Idealize.ShloMosaic.ValueIdx

variable {α : Type}

/-- A matrix [a, b] cast to [a, b, 1] reads, at (i, j, u), the matrix at (i, j): both indices sit at row-major
    position i * b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An array [a, b, 1] broadcast to [a, b, c] reads, at (i, j, k), the operand at (i, j, 0): the unit axis is read
    at 0, the other two at the result's own coordinates. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl)

/-- The two steps together: a matrix given a trailing unit axis and repeated along it reads, at (i, j, k), the
    matrix at (i, j). -/
theorem broadcastTo_shapeCast_trailing_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) := by
  rw [broadcastTo_ab1_abc_apply, shapeCast_ab_ab1_apply]

/-- An array [a, b, e] cast to [a, b, c, d] with `c * d = e` reads, at (i, j, k, l), the array at (i, j, m) with
    `m = d * k + l`: the last axis cut into c runs of d. -/
theorem shapeCast_abe_abcd_apply {a b c d e : ℕ} (x : (⟨3, ![a, b, e]⟩ : Shape).Idx → α)
    (h : (⟨3, ![a, b, e]⟩ : Shape).ShapeCasts ⟨4, ![a, b, c, d]⟩) (hcd : c * d = e)
    (i : Fin a) (j : Fin b) (k : Fin c) (l : Fin d) (m : Fin e) (hm : m.val = d * k.val + l.val) :
    shapeCast ⟨4, ![a, b, c, d]⟩ x h (ix4 i j k l) = x (ix3 i j m) :=
  shapeCast_apply x h _ _ (by
    rw [Shape.rowMajor_val_three, Shape.rowMajor_val_four]
    show (i.val * b + j.val) * e + m.val = ((i.val * b + j.val) * c + k.val) * d + l.val
    rw [hm, ← hcd]
    ring)

end Cert.Lib.TrailingAxis
-- ==== Proof.Spec.lean ====
/-
  The squeeze-and-excitation gate as ONE function of the five argument arrays, on the extended reals.

  For a feature map x of 32 images × 768 channels × 32 × 32 positions:
    • squeeze: the mean of each channel's 1024 positions, m(n, c) = (∑ₖ x(n, c, k / 32, k % 32)) · (1/1024);
    • first layer: z₁(n, j) = ∑_c m(n, c) · w₁(j, c) + b₁(j), then the swish h(n, j) = z₁ · σ(z₁);
    • second layer: z₂(n, c) = ∑_j h(n, j) · w₂(c, j) + b₂(c), and the gate g(n, c) = σ(z₂);
    • excitation: every position of channel c of image n is multiplied by g(n, c).
  σ is the logistic function 1 / (1 + e⁻ᶻ) with its limits 0 and 1 at the infinities.

  The positions of one channel are numbered row-major, k = 32 · row + column; the same function is also stated on
  the array with the two position axes merged into one axis of 1024, which is how a kernel that treats the map as
  32 × 768 × 1024 produces it.
-/
import Idealize.ShloMosaic.PureOps.Ideal
import Idealize.ShloMosaic.Lib.ValueIdx

noncomputable section

namespace Cert.Spec

open Idealize.ShloMosaic Idealize.ShloMosaic.ValueIdx

abbrev SX : Shape := ⟨4, ![32, 768, 32, 32]⟩
abbrev SX3 : Shape := ⟨3, ![32, 768, 1024]⟩
abbrev SW1 : Shape := ⟨2, ![192, 768]⟩
abbrev SB1 : Shape := ⟨1, ![192]⟩
abbrev SW2 : Shape := ⟨2, ![768, 192]⟩
abbrev SB2 : Shape := ⟨1, ![768]⟩

/-- The row of the position numbered `k`. -/
def row (k : Fin 1024) : Fin 32 := ⟨k.val / 32, by have := k.isLt; omega⟩
/-- The column of the position numbered `k`. -/
def col (k : Fin 1024) : Fin 32 := ⟨k.val % 32, by have := k.isLt; omega⟩

/-- The sum of channel `c` of image `n` over its 1024 positions. -/
def pooled (x : SX.Idx → EReal) (n : Fin 32) (c : Fin 768) : EReal :=
  ∑ k : Fin 1024, x (ix4 n c (row k) (col k))

/-- The channel's mean: the sum times 1/1024. -/
def squeeze (x : SX.Idx → EReal) (n : Fin 32) (c : Fin 768) : EReal :=
  pooled x n c * ((1 / 1024 : ℝ) : EReal)

/-- The first layer before its activation. -/
def pre1 (x : SX.Idx → EReal) (w1 : SW1.Idx → EReal) (b1 : SB1.Idx → EReal) (n : Fin 32) (j : Fin 192) : EReal :=
  (∑ c : Fin 768, squeeze x n c * w1 (ix2 j c)) + b1 (ix1 j)

/-- The first layer after the swish activation z · σ(z). -/
def hidden (x : SX.Idx → EReal) (w1 : SW1.Idx → EReal) (b1 : SB1.Idx → EReal) (n : Fin 32) (j : Fin 192) : EReal :=
  pre1 x w1 b1 n j * Ideal.logistic (pre1 x w1 b1 n j)

/-- The second layer before the logistic function. -/
def pre2 (x : SX.Idx → EReal) (w1 : SW1.Idx → EReal) (b1 : SB1.Idx → EReal) (w2 : SW2.Idx → EReal) (b2 : SB2.Idx → EReal)
    (n : Fin 32) (c : Fin 768) : EReal :=
  (∑ j : Fin 192, hidden x w1 b1 n j * w2 (ix2 c j)) + b2 (ix1 c)

/-- The gate of channel `c` of image `n`. -/
def gate (x : SX.Idx → EReal) (w1 : SW1.Idx → EReal) (b1 : SB1.Idx → EReal) (w2 : SW2.Idx → EReal) (b2 : SB2.Idx → EReal)
    (n : Fin 32) (c : Fin 768) : EReal :=
  Ideal.logistic (pre2 x w1 b1 w2 b2 n c)

/-- The result: each entry of the map times its channel's gate. -/
def G (x : SX.Idx → EReal) (w1 : SW1.Idx → EReal) (b1 : SB1.Idx → EReal) (w2 : SW2.Idx → EReal) (b2 : SB2.Idx → EReal) :
    SX.Idx → EReal :=
  fun i => x i * gate x w1 b1 w2 b2 (i 0) (i 1)

/-- The same result on the map with its two position axes merged: the entry at position number `k` is the map's
    entry at (row k, column k), times the gate. -/
def G3 (x : SX.Idx → EReal) (w1 : SW1.Idx → EReal) (b1 : SB1.Idx → EReal) (w2 : SW2.Idx → EReal) (b2 : SB2.Idx → EReal) :
    SX3.Idx → EReal :=
  fun j => x (ix4 (j 0) (j 1) (row (j 2)) (col (j 2))) * gate x w1 b1 w2 b2 (j 0) (j 1)

end Cert.Spec

end
-- ==== Proof.Consts.lean ====
/-
  The three float constants the two programs spell, as the extended reals their bit patterns denote when a float
  is read as an exact number: the divisor 1024 of the spatial mean, its reciprocal 2⁻¹⁰ (a power of two, so the
  pattern denotes the reciprocal exactly), and the 1 of the logistic function. They are stated once, here, so that
  the pattern decoder is unfolded in one place only.
-/
import Idealize.ShloMosaic.PureOps.Ideal

noncomputable section

namespace Cert.Consts

open Idealize.ShloMosaic

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `9.765625e-4` denotes 2⁻¹⁰ = 1/1024 exactly. -/
theorem ofBits_inv1024 : Ideal.ofBits .f32 0x3A800000#32 = ((1 / 1024 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

end Cert.Consts

end
-- ==== Proof.KernelBody.lean ====
/-
  What the kernel body computes from the blocks it loads, entry by entry.

  At one grid point the body holds a block v₀ of 2 images × 768 channels × 1024 positions, the two weight matrices
  already transposed (v₆ : 768 × 192, v₁₆ : 192 × 768) and the two biases as rows (v₉ : 1 × 192, v₁₉ : 1 × 768). Its
  one store is, at (p, c, l),

      v₀(p, c, l) · σ( ∑_j h(p, j) · v₁₆(j, c) + v₁₉(0, c) ),   h(p, j) = z(p, j) · σ(z(p, j)),
      z(p, j) = ∑_c m(p, c) · v₆(c, j) + v₉(0, j),              m(p, c) = (∑_k v₀(p, c, k)) · (1/1024),

  with σ the logistic function. On exact numbers a change of float format is the identity, a lane reduction is a
  finite sum, and a matrix product accumulated into zero is the sum of the products over the contracted axis; a
  row broadcast reads its one row, and a per-(p, c) number given a trailing unit axis and repeated along the
  positions reads that number. The stored value is first split into five stages (each a vector of the body's own
  operations over variables), then each stage is read at an index.
-/
import proofs.«110447_j79139067396494_2_alg».proof.Proof.Gen.KernelIdeal.Skeleton
import proofs.«110447_j79139067396494_2_alg».proof.Proof.Consts
import proofs.«110447_j79139067396494_2_alg».proof.Proof.LibTrailingAxis
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The block-level functions -/

/-- The mean of channel `c` of the block's image `p`. -/
def bsqueeze (v0 : S2x768x1024.Idx → EReal) (p : Fin 2) (c : Fin 768) : EReal :=
  (∑ k : Fin 1024, v0 (ix3 p c k)) * ((1 / 1024 : ℝ) : EReal)

/-- The first layer before its activation. -/
def bpre1 (v0 : S2x768x1024.Idx → EReal) (v6 : S768x192.Idx → EReal) (v9 : S1x192.Idx → EReal) (p : Fin 2) (j : Fin 192) : EReal :=
  (∑ c : Fin 768, bsqueeze v0 p c * v6 (ix2 c j)) + v9 (ix2 (0 : Fin 1) j)

/-- The first layer after the swish activation. -/
def bhidden (v0 : S2x768x1024.Idx → EReal) (v6 : S768x192.Idx → EReal) (v9 : S1x192.Idx → EReal) (p : Fin 2) (j : Fin 192) : EReal :=
  bpre1 v0 v6 v9 p j * Ideal.logistic (bpre1 v0 v6 v9 p j)

/-- The second layer before the logistic function. -/
def bpre2 (v0 : S2x768x1024.Idx → EReal) (v6 : S768x192.Idx → EReal) (v9 : S1x192.Idx → EReal) (v16 : S192x768.Idx → EReal)
    (v19 : S1x768.Idx → EReal) (p : Fin 2) (c : Fin 768) : EReal :=
  (∑ j : Fin 192, bhidden v0 v6 v9 p j * v16 (ix2 j c)) + v19 (ix2 (0 : Fin 1) c)

/-- The gate of channel `c` of the block's image `p`. -/
def bgate (v0 : S2x768x1024.Idx → EReal) (v6 : S768x192.Idx → EReal) (v9 : S1x192.Idx → EReal) (v16 : S192x768.Idx → EReal)
    (v19 : S1x768.Idx → EReal) (p : Fin 2) (c : Fin 768) : EReal :=
  Ideal.logistic (bpre2 v0 v6 v9 v16 v19 p c)

/-! ## The stored value in five stages -/

/-- The two contractions' dimension records. -/
abbrev D1 := dot_S2x768_S768x192_S2x192_1_0_0_1_n_n
abbrev D2 := dot_S2x192_S192x768_S2x768_1_0_0_1_n_n

/-- Stage 1: the lane sums times the reciprocal of the number of positions. -/
def sMean (v0 : FVec Ideal S2x768x1024 .f32) : FVec Ideal S2x768 .f32 :=
  mulf (multiReduction .add [2] S2x768 (shapeCast S2x768x1024 v0 shapeCasts_S2x768x1024_S2x768x1024) 0x00000000#32
      reduces_S2x768x1024_S2x768 (.inl rfl) rfl)
    (broadcast S2x768 (Scalar.ofBits .f32 0x3A800000#32))

/-- Stage 2: the first matrix product plus the first bias row. -/
def sPre1 (v0 : FVec Ideal S2x768x1024 .f32) (v6 : FVec Ideal S768x192 .bf16) (v9 : FVec Ideal S1x192 .f32) : FVec Ideal S2x192 .f32 :=
  addf (matmul D1 none (truncf .bf16 (sMean v0) bitsLt_bf16_f32) (shapeCast S768x192 v6 shapeCasts_S768x192_S768x192)
      (constant S2x192 .f32 0x00000000#32))
    (broadcastTo S2x192 (shapeCast S1x192 v9 shapeCasts_S1x192_S1x192) broadcasts_S1x192_S2x192)

/-- Stage 3: the swish. -/
def sHidden (v0 : FVec Ideal S2x768x1024 .f32) (v6 : FVec Ideal S768x192 .bf16) (v9 : FVec Ideal S1x192 .f32) : FVec Ideal S2x192 .f32 :=
  mulf (sPre1 v0 v6 v9) (logistic (sPre1 v0 v6 v9))

/-- Stage 4: the second matrix product plus the second bias row. -/
def sPre2 (v0 : FVec Ideal S2x768x1024 .f32) (v6 : FVec Ideal S768x192 .bf16) (v9 : FVec Ideal S1x192 .f32)
    (v16 : FVec Ideal S192x768 .bf16) (v19 : FVec Ideal S1x768 .f32) : FVec Ideal S2x768 .f32 :=
  addf (matmul D2 none (truncf .bf16 (sHidden v0 v6 v9) bitsLt_bf16_f32) (shapeCast S192x768 v16 shapeCasts_S192x768_S192x768)
      (constant S2x768 .f32 0x00000000#32))
    (broadcastTo S2x768 (shapeCast S1x768 v19 shapeCasts_S1x768_S1x768) broadcasts_S1x768_S2x768)

/-- Stage 5: the gate. -/
def sGate (v0 : FVec Ideal S2x768x1024 .f32) (v6 : FVec Ideal S768x192 .bf16) (v9 : FVec Ideal S1x192 .f32)
    (v16 : FVec Ideal S192x768 .bf16) (v19 : FVec Ideal S1x768 .f32) : FVec Ideal S2x768 .f32 :=
  logistic (sPre2 v0 v6 v9 v16 v19)

/-- The body's stored value is the block times the gate repeated along the positions. -/
theorem pay_eq_stages (v0 : Vec Ideal S2x768x1024 .f32) (v6 : Vec Ideal S768x192 .bf16) (v9 : Vec Ideal S1x192 .f32)
    (v16 : Vec Ideal S192x768 .bf16) (v19 : Vec Ideal S1x768 .f32) :
    k0_pay1 (F := Ideal) v0 v6 v9 v16 v19
      = mulf (shapeCast S2x768x1024 v0 shapeCasts_S2x768x1024_S2x768x1024)
          (broadcastTo S2x768x1024 (shapeCast S2x768x1 (sGate v0 v6 v9 v16 v19) shapeCasts_S2x768_S2x768x1)
            broadcasts_S2x768x1_S2x768x1024) := rfl

/-! ## Each stage read at an index -/

/-- The lane sum of row (p, c) runs over that row's 1024 entries. -/
theorem sMean_apply (v0 : FVec Ideal S2x768x1024 .f32) (p : Fin 2) (c : Fin 768) :
    sMean v0 (ix2 p c) = bsqueeze v0 p c := by
  unfold sMean bsqueeze
  rw [shapeCast_self]
  show multiReduction .add [2] S2x768 v0 0x00000000#32 reduces_S2x768x1024_S2x768 (.inl rfl) rfl (ix2 p c)
      * Ideal.ofBits .f32 0x3A800000#32 = _
  rw [Cert.Consts.ofBits_inv1024]
  refine congrArg (· * (((1 / 1024 : ℝ)) : EReal)) ?_
  refine (Ideal.multiReduction_add_single v0 0x00000000#32 reduces_S2x768x1024_S2x768 (.inl rfl) rfl (ix2 p c)).trans ?_
  refine Finset.sum_congr rfl fun k _ => congrArg v0 ?_
  funext a
  match a with
  | ⟨0, _⟩ => rfl
  | ⟨1, _⟩ => rfl
  | ⟨2, _⟩ => rfl

theorem lhs1_0 (i : S2x192.Idx) (q : D1.contr.Idx) : (D1.lhsIdx i q 0).val = (i 0).val := by
  unfold DotDims.lhsIdx
  rw [dif_neg (show ¬(0 : Fin S2x768.rank) ∈ D1.lhsBatch by decide), dif_pos (show (0 : Fin S2x768.rank) ∈ D1.lhsNonContracting by decide)]
  rfl
theorem rhs1_1 (i : S2x192.Idx) (q : D1.contr.Idx) : (D1.rhsIdx i q 1).val = (i 1).val := by
  unfold DotDims.rhsIdx
  rw [dif_neg (show ¬(1 : Fin S768x192.rank) ∈ D1.rhsBatch by decide), dif_pos (show (1 : Fin S768x192.rank) ∈ D1.rhsNonContracting by decide)]
  rfl
theorem lhs2_0 (i : S2x768.Idx) (q : D2.contr.Idx) : (D2.lhsIdx i q 0).val = (i 0).val := by
  unfold DotDims.lhsIdx
  rw [dif_neg (show ¬(0 : Fin S2x192.rank) ∈ D2.lhsBatch by decide), dif_pos (show (0 : Fin S2x192.rank) ∈ D2.lhsNonContracting by decide)]
  rfl
theorem rhs2_1 (i : S2x768.Idx) (q : D2.contr.Idx) : (D2.rhsIdx i q 1).val = (i 1).val := by
  unfold DotDims.rhsIdx
  rw [dif_neg (show ¬(1 : Fin S192x768.rank) ∈ D2.rhsBatch by decide), dif_pos (show (1 : Fin S192x768.rank) ∈ D2.rhsNonContracting by decide)]
  rfl

/-- The first product at (p, j) sums row p of the means against column j of the weights. -/
theorem matmul1_apply (a : FVec Ideal S2x768 .bf16) (w : FVec Ideal S768x192 .bf16) (p : Fin 2) (j : Fin 192) :
    matmul D1 none a w (constant S2x192 .f32 0x00000000#32) (ix2 p j) = ∑ k : Fin 768, a (ix2 p k) * w (ix2 k j) := by
  simp only [matmul]
  rw [Ideal.matmul_constant_zero_apply, ← Equiv.sum_comp (contrEquiv1 D1 768 rfl rfl).symm]
  refine Finset.sum_congr rfl fun k _ => ?_
  have hk := contrEquiv1_symm_val D1 768 rfl rfl k
  have el : D1.lhsIdx (ix2 p j) ((contrEquiv1 D1 768 rfl rfl).symm k) = ix2 p k := funext fun x => Fin.ext (by
    match x with
    | ⟨0, _⟩ => exact lhs1_0 _ _
    | ⟨1, _⟩ => exact (D1.lhsIdx_val_of_single rfl _ _).trans hk)
  have er : D1.rhsIdx (ix2 p j) ((contrEquiv1 D1 768 rfl rfl).symm k) = ix2 k j := funext fun x => Fin.ext (by
    match x with
    | ⟨0, _⟩ => exact (D1.rhsIdx_val_of_single rfl _ _).trans hk
    | ⟨1, _⟩ => exact rhs1_1 _ _)
  rw [el, er]

/-- The second product at (p, c) sums row p of the hidden layer against column c of the weights. -/
theorem matmul2_apply (a : FVec Ideal S2x192 .bf16) (w : FVec Ideal S192x768 .bf16) (p : Fin 2) (c : Fin 768) :
    matmul D2 none a w (constant S2x768 .f32 0x00000000#32) (ix2 p c) = ∑ k : Fin 192, a (ix2 p k) * w (ix2 k c) := by
  simp only [matmul]
  rw [Ideal.matmul_constant_zero_apply, ← Equiv.sum_comp (contrEquiv1 D2 192 rfl rfl).symm]
  refine Finset.sum_congr rfl fun k _ => ?_
  have hk := contrEquiv1_symm_val D2 192 rfl rfl k
  have el : D2.lhsIdx (ix2 p c) ((contrEquiv1 D2 192 rfl rfl).symm k) = ix2 p k := funext fun x => Fin.ext (by
    match x with
    | ⟨0, _⟩ => exact lhs2_0 _ _
    | ⟨1, _⟩ => exact (D2.lhsIdx_val_of_single rfl _ _).trans hk)
  have er : D2.rhsIdx (ix2 p c) ((contrEquiv1 D2 192 rfl rfl).symm k) = ix2 k c := funext fun x => Fin.ext (by
    match x with
    | ⟨0, _⟩ => exact (D2.rhsIdx_val_of_single rfl _ _).trans hk
    | ⟨1, _⟩ => exact rhs2_1 _ _)
  rw [el, er]

theorem sPre1_apply (v0 : FVec Ideal S2x768x1024 .f32) (v6 : FVec Ideal S768x192 .bf16) (v9 : FVec Ideal S1x192 .f32)
    (p : Fin 2) (j : Fin 192) : sPre1 v0 v6 v9 (ix2 p j) = bpre1 v0 v6 v9 p j := by
  unfold sPre1 bpre1
  rw [shapeCast_self, shapeCast_self]
  show matmul D1 none (truncf .bf16 (sMean v0) bitsLt_bf16_f32) v6 (constant S2x192 .f32 0x00000000#32) (ix2 p j)
      + broadcastTo S2x192 v9 broadcasts_S1x192_S2x192 (ix2 p j) = _
  rw [matmul1_apply, broadcastTo_1b_ab_apply]
  refine congrArg (· + v9 (ix2 (0 : Fin 1) j)) (Finset.sum_congr rfl fun k _ => ?_)
  show sMean v0 (ix2 p k) * v6 (ix2 k j) = _
  rw [sMean_apply]

theorem sHidden_apply (v0 : FVec Ideal S2x768x1024 .f32) (v6 : FVec Ideal S768x192 .bf16) (v9 : FVec Ideal S1x192 .f32)
    (p : Fin 2) (j : Fin 192) : sHidden v0 v6 v9 (ix2 p j) = bhidden v0 v6 v9 p j := by
  unfold sHidden bhidden
  show sPre1 v0 v6 v9 (ix2 p j) * Ideal.logistic (sPre1 v0 v6 v9 (ix2 p j)) = _
  rw [sPre1_apply]

theorem sPre2_apply (v0 : FVec Ideal S2x768x1024 .f32) (v6 : FVec Ideal S768x192 .bf16) (v9 : FVec Ideal S1x192 .f32)
    (v16 : FVec Ideal S192x768 .bf16) (v19 : FVec Ideal S1x768 .f32) (p : Fin 2) (c : Fin 768) :
    sPre2 v0 v6 v9 v16 v19 (ix2 p c) = bpre2 v0 v6 v9 v16 v19 p c := by
  unfold sPre2 bpre2
  rw [shapeCast_self, shapeCast_self]
  show matmul D2 none (truncf .bf16 (sHidden v0 v6 v9) bitsLt_bf16_f32) v16 (constant S2x768 .f32 0x00000000#32) (ix2 p c)
      + broadcastTo S2x768 v19 broadcasts_S1x768_S2x768 (ix2 p c) = _
  rw [matmul2_apply, broadcastTo_1b_ab_apply]
  refine congrArg (· + v19 (ix2 (0 : Fin 1) c)) (Finset.sum_congr rfl fun k _ => ?_)
  show sHidden v0 v6 v9 (ix2 p k) * v16 (ix2 k c) = _
  rw [sHidden_apply]

theorem sGate_apply (v0 : FVec Ideal S2x768x1024 .f32) (v6 : FVec Ideal S768x192 .bf16) (v9 : FVec Ideal S1x192 .f32)
    (v16 : FVec Ideal S192x768 .bf16) (v19 : FVec Ideal S1x768 .f32) (p : Fin 2) (c : Fin 768) :
    sGate v0 v6 v9 v16 v19 (ix2 p c) = bgate v0 v6 v9 v16 v19 p c := by
  unfold sGate bgate
  show Ideal.logistic (sPre2 v0 v6 v9 v16 v19 (ix2 p c)) = _
  rw [sPre2_apply]

/-- The stored value at (p, c, l): the block's entry there times the gate of (p, c). -/
theorem pay_apply (v0 : Vec Ideal S2x768x1024 .f32) (v6 : Vec Ideal S768x192 .bf16) (v9 : Vec Ideal S1x192 .f32)
    (v16 : Vec Ideal S192x768 .bf16) (v19 : Vec Ideal S1x768 .f32) (p : Fin 2) (c : Fin 768) (l : Fin 1024) :
    k0_pay1 (F := Ideal) v0 v6 v9 v16 v19 (ix3 p c l) = v0 (ix3 p c l) * bgate v0 v6 v9 v16 v19 p c := by
  rw [pay_eq_stages, shapeCast_self]
  show v0 (ix3 p c l) * broadcastTo S2x768x1024 (shapeCast S2x768x1 (sGate v0 v6 v9 v16 v19) shapeCasts_S2x768_S2x768x1)
      broadcasts_S2x768x1_S2x768x1024 (ix3 p c l) = _
  rw [Cert.Lib.TrailingAxis.broadcastTo_shapeCast_trailing_apply, sGate_apply]

end Cert.KernelIdeal.Body

end
-- ==== Proof.BlockSpec.lean ====
/-
  From a block to the whole arrays: if the entries of the loaded blocks ARE entries of the argument arrays — the
  feature block's (p, c, k) the map's (n, c, row k, column k) for one image n, the transposed weights' (c, j) the
  weights' (j, c), each bias row's (0, j) the bias's j — then every block-level quantity of image p is the
  corresponding quantity of image n of the whole computation: mean, first layer, swish, second layer, gate. Each
  step re-indexes a finite sum term by term; no property of the numbers is used.
-/
import proofs.«110447_j79139067396494_2_alg».proof.Proof.KernelBody
import proofs.«110447_j79139067396494_2_alg».proof.Proof.Spec

noncomputable section

namespace Cert.KernelIdeal.Body

open Cert.KernelIdeal Idealize.ShloMosaic Idealize.ShloMosaic.ValueIdx

variable (v0 : S2x768x1024.Idx → EReal) (v6 : S768x192.Idx → EReal) (v9 : S1x192.Idx → EReal)
  (v16 : S192x768.Idx → EReal) (v19 : S1x768.Idx → EReal)
  (x : Cert.Spec.SX.Idx → EReal) (w1 : Cert.Spec.SW1.Idx → EReal) (b1 : Cert.Spec.SB1.Idx → EReal)
  (w2 : Cert.Spec.SW2.Idx → EReal) (b2 : Cert.Spec.SB2.Idx → EReal) (p : Fin 2) (n : Fin 32)

theorem bsqueeze_eq (h0 : ∀ (c : Fin 768) (k : Fin 1024), v0 (ix3 p c k) = x (ix4 n c (Cert.Spec.row k) (Cert.Spec.col k)))
    (c : Fin 768) : bsqueeze v0 p c = Cert.Spec.squeeze x n c := by
  unfold bsqueeze Cert.Spec.squeeze Cert.Spec.pooled
  exact congrArg (· * (((1 / 1024 : ℝ)) : EReal)) (Finset.sum_congr rfl fun k _ => h0 c k)

theorem bpre1_eq (h0 : ∀ (c : Fin 768) (k : Fin 1024), v0 (ix3 p c k) = x (ix4 n c (Cert.Spec.row k) (Cert.Spec.col k)))
    (h6 : ∀ (c : Fin 768) (j : Fin 192), v6 (ix2 c j) = w1 (ix2 j c))
    (h9 : ∀ j : Fin 192, v9 (ix2 (0 : Fin 1) j) = b1 (ix1 j)) (j : Fin 192) :
    bpre1 v0 v6 v9 p j = Cert.Spec.pre1 x w1 b1 n j := by
  unfold bpre1 Cert.Spec.pre1
  rw [h9 j]
  exact congrArg (· + b1 (ix1 j)) (Finset.sum_congr rfl fun c _ => by rw [bsqueeze_eq v0 x p n h0 c, h6 c j])

theorem bhidden_eq (h0 : ∀ (c : Fin 768) (k : Fin 1024), v0 (ix3 p c k) = x (ix4 n c (Cert.Spec.row k) (Cert.Spec.col k)))
    (h6 : ∀ (c : Fin 768) (j : Fin 192), v6 (ix2 c j) = w1 (ix2 j c))
    (h9 : ∀ j : Fin 192, v9 (ix2 (0 : Fin 1) j) = b1 (ix1 j)) (j : Fin 192) :
    bhidden v0 v6 v9 p j = Cert.Spec.hidden x w1 b1 n j := by
  unfold bhidden Cert.Spec.hidden
  rw [bpre1_eq v0 v6 v9 x w1 b1 p n h0 h6 h9 j]

theorem bpre2_eq (h0 : ∀ (c : Fin 768) (k : Fin 1024), v0 (ix3 p c k) = x (ix4 n c (Cert.Spec.row k) (Cert.Spec.col k)))
    (h6 : ∀ (c : Fin 768) (j : Fin 192), v6 (ix2 c j) = w1 (ix2 j c))
    (h9 : ∀ j : Fin 192, v9 (ix2 (0 : Fin 1) j) = b1 (ix1 j))
    (h16 : ∀ (j : Fin 192) (c : Fin 768), v16 (ix2 j c) = w2 (ix2 c j))
    (h19 : ∀ c : Fin 768, v19 (ix2 (0 : Fin 1) c) = b2 (ix1 c)) (c : Fin 768) :
    bpre2 v0 v6 v9 v16 v19 p c = Cert.Spec.pre2 x w1 b1 w2 b2 n c := by
  unfold bpre2 Cert.Spec.pre2
  rw [h19 c]
  exact congrArg (· + b2 (ix1 c)) (Finset.sum_congr rfl fun j _ => by
    rw [bhidden_eq v0 v6 v9 x w1 b1 p n h0 h6 h9 j, h16 j c])

/-- The block's gate of (p, c) is the whole computation's gate of (n, c). -/
theorem bgate_eq (h0 : ∀ (c : Fin 768) (k : Fin 1024), v0 (ix3 p c k) = x (ix4 n c (Cert.Spec.row k) (Cert.Spec.col k)))
    (h6 : ∀ (c : Fin 768) (j : Fin 192), v6 (ix2 c j) = w1 (ix2 j c))
    (h9 : ∀ j : Fin 192, v9 (ix2 (0 : Fin 1) j) = b1 (ix1 j))
    (h16 : ∀ (j : Fin 192) (c : Fin 768), v16 (ix2 j c) = w2 (ix2 c j))
    (h19 : ∀ c : Fin 768, v19 (ix2 (0 : Fin 1) c) = b2 (ix1 c)) (c : Fin 768) :
    bgate v0 v6 v9 v16 v19 p c = Cert.Spec.gate x w1 b1 w2 b2 n c := by
  unfold bgate Cert.Spec.gate
  rw [bpre2_eq v0 v6 v9 v16 v19 x w1 b1 w2 b2 p n h0 h6 h9 h16 h19 c]

end Cert.KernelIdeal.Body

end
-- ==== Proof.KernelValue.lean ====
/-
  The idealized kernel's value: what its result array holds after the run, as the squeeze-and-excitation function of
  the argument arrays.

  Before the launch the host lays the feature map out as 32 × 768 × 1024 (its two position axes merged, row-major),
  transposes the two weight matrices, and makes each bias a row; a change of float format changes nothing on exact
  numbers. Grid point t then works on images 2t and 2t + 1: its feature block is rows 2t, 2t + 1 of the merged map,
  and its other four blocks are the whole transposed weights and bias rows. So the blocks' entries are entries of
  the argument arrays, the body's stored value at (p, c, l) is the map's entry of image 2t + p at channel c and
  position l times that image's gate of channel c, and block t of the result is block t of one whole-array function.
  The sixteen blocks tile the array (row r lies in the block of point r / 2), so the array ends holding that
  function; the reshape after the launch splits the position axis again, position number 32 · h + w back to (h, w).
-/
import proofs.«110447_j79139067396494_2_alg».proof.Proof.Gen.KernelIdeal.Frame
import proofs.«110447_j79139067396494_2_alg».proof.Proof.LibKeepAxis
import proofs.«110447_j79139067396494_2_alg».proof.Proof.LibTrailingAxis
import proofs.«110447_j79139067396494_2_alg».proof.Proof.Spec
import proofs.«110447_j79139067396494_2_alg».proof.Proof.BlockSpec
import Idealize.ShloMosaic.Lib.StableHlo.Run
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The five argument arrays on core c. -/
abbrev argX (c : Dev nD) : S32x768x32x32.Idx → EReal := m ((c : Thread nD τ).loc main_arg0)
abbrev argW1 (c : Dev nD) : S192x768.Idx → EReal := m ((c : Thread nD τ).loc main_arg1)
abbrev argB1 (c : Dev nD) : S192.Idx → EReal := m ((c : Thread nD τ).loc main_arg2)
abbrev argW2 (c : Dev nD) : S768x192.Idx → EReal := m ((c : Thread nD τ).loc main_arg3)
abbrev argB2 (c : Dev nD) : S768.Idx → EReal := m ((c : Thread nD τ).loc main_arg4)

/-! ## The arrays the launch finds

Each is one or two host operations of an argument array. -/

/-- The feature map with its position axes merged. -/
theorem V_v0 (c : Dev nD) : (V m c main_v0 : S32x768x1024.Idx → EReal)
    = shapeCast S32x768x1024 (argX m c) shapeCasts_S32x768x32x32_S32x768x1024 := by
  show StableHlo.after hostOps0 (fun b => m (c, b)) (Proc.devRef .tc main_v0) = _
  after_results
  rfl

/-- The first weight matrix, transposed. -/
theorem V_v2 (c : Dev nD) : (V m c main_v2 : S768x192.Idx → EReal)
    = (truncf (F := Ideal) .bf16 (transpose S768x192 [1, 0] (argW1 m c) transposes_S192x768_S768x192_1_0 : FVec Ideal S768x192 .f32) bitsLt_bf16_f32 : FVec Ideal S768x192 .bf16) := by
  show StableHlo.after hostOps0 (fun b => m (c, b)) (Proc.devRef .tc main_v2) = _
  after_results

/-- The first bias as a row. -/
theorem V_v5 (c : Dev nD) : (V m c main_v5 : S1x192.Idx → EReal)
    = shapeCast S1x192 (argB1 m c) shapeCasts_S192_S1x192 := by
  show StableHlo.after hostOps0 (fun b => m (c, b)) (Proc.devRef .tc main_v5) = _
  after_results
  rfl

/-- The second weight matrix, transposed. -/
theorem V_v4 (c : Dev nD) : (V m c main_v4 : S192x768.Idx → EReal)
    = (truncf (F := Ideal) .bf16 (transpose S192x768 [1, 0] (argW2 m c) transposes_S768x192_S192x768_1_0 : FVec Ideal S192x768 .f32) bitsLt_bf16_f32 : FVec Ideal S192x768 .bf16) := by
  show StableHlo.after hostOps0 (fun b => m (c, b)) (Proc.devRef .tc main_v4) = _
  after_results

/-- The second bias as a row. -/
theorem V_v6 (c : Dev nD) : (V m c main_v6 : S1x768.Idx → EReal)
    = shapeCast S1x768 (argB2 m c) shapeCasts_S768_S1x768 := by
  show StableHlo.after hostOps0 (fun b => m (c, b)) (Proc.devRef .tc main_v6) = _
  after_results
  rfl

/-! ## The blocks at a grid point -/

/-- The feature block of point t starts at row 2t (block index t on the first axis, 0 on the others). -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- An entry of the feature block is the entry of the merged map two rows per point further down. -/
theorem iblk0_apply (c : Dev nD) (t : Fin cfg0.N) (x : S2x768x1024.Idx) (k : S32x768x1024.Idx)
    (hk0 : (k 0).val = 2 * t.val + (x 0).val) (hk1 : (k 1).val = (x 1).val) (hk2 : (k 2).val = (x 2).val) :
    (iblk m c 0 t : Vec Ideal S2x768x1024 .f32) x = (V m c main_v0 : S32x768x1024.Idx → EReal) k := by
  obtain ⟨e0, e1, e2⟩ := idx0 t
  unfold iblk
  rw [View.read_apply]
  refine congrArg (V m c main_v0 : S32x768x1024.Idx → EReal) ?_
  funext a
  apply Fin.ext
  match a with
  | ⟨0, _⟩ => show win0_0.index t (0 : Fin 3) * 2 + 1 * (x 0).val = (k 0).val; omega
  | ⟨1, _⟩ => show win0_0.index t (1 : Fin 3) * 768 + 1 * (x 1).val = (k 1).val; omega
  | ⟨2, _⟩ => show win0_0.index t (2 : Fin 3) * 1024 + 1 * (x 2).val = (k 2).val; omega

/-- The other four input blocks are the whole arrays: block index 0 on every axis, at every point. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

theorem iblk1_apply (c : Dev nD) (t : Fin cfg0.N) (x : S768x192.Idx) :
    (iblk m c 1 t : Vec Ideal S768x192 .bf16) x = (V m c main_v2 : S768x192.Idx → EReal) x := by
  obtain ⟨e0, e1⟩ := idx1 t
  unfold iblk
  rw [View.read_apply]
  refine congrArg (V m c main_v2 : S768x192.Idx → EReal) ?_
  funext a
  apply Fin.ext
  match a with
  | ⟨0, _⟩ => show win0_1.index t (0 : Fin 2) * 768 + 1 * (x 0).val = (x 0).val; omega
  | ⟨1, _⟩ => show win0_1.index t (1 : Fin 2) * 192 + 1 * (x 1).val = (x 1).val; omega

theorem iblk2_apply (c : Dev nD) (t : Fin cfg0.N) (x : S1x192.Idx) :
    (iblk m c 2 t : Vec Ideal S1x192 .f32) x = (V m c main_v5 : S1x192.Idx → EReal) x := by
  obtain ⟨e0, e1⟩ := idx2 t
  unfold iblk
  rw [View.read_apply]
  refine congrArg (V m c main_v5 : S1x192.Idx → EReal) ?_
  funext a
  apply Fin.ext
  match a with
  | ⟨0, _⟩ => show win0_2.index t (0 : Fin 2) * 1 + 1 * (x 0).val = (x 0).val; omega
  | ⟨1, _⟩ => show win0_2.index t (1 : Fin 2) * 192 + 1 * (x 1).val = (x 1).val; omega

theorem iblk3_apply (c : Dev nD) (t : Fin cfg0.N) (x : S192x768.Idx) :
    (iblk m c 3 t : Vec Ideal S192x768 .bf16) x = (V m c main_v4 : S192x768.Idx → EReal) x := by
  obtain ⟨e0, e1⟩ := idx3 t
  unfold iblk
  rw [View.read_apply]
  refine congrArg (V m c main_v4 : S192x768.Idx → EReal) ?_
  funext a
  apply Fin.ext
  match a with
  | ⟨0, _⟩ => show win0_3.index t (0 : Fin 2) * 192 + 1 * (x 0).val = (x 0).val; omega
  | ⟨1, _⟩ => show win0_3.index t (1 : Fin 2) * 768 + 1 * (x 1).val = (x 1).val; omega

theorem iblk4_apply (c : Dev nD) (t : Fin cfg0.N) (x : S1x768.Idx) :
    (iblk m c 4 t : Vec Ideal S1x768 .f32) x = (V m c main_v6 : S1x768.Idx → EReal) x := by
  obtain ⟨e0, e1⟩ := idx4 t
  unfold iblk
  rw [View.read_apply]
  refine congrArg (V m c main_v6 : S1x768.Idx → EReal) ?_
  funext a
  apply Fin.ext
  match a with
  | ⟨0, _⟩ => show win0_4.index t (0 : Fin 2) * 1 + 1 * (x 0).val = (x 0).val; omega
  | ⟨1, _⟩ => show win0_4.index t (1 : Fin 2) * 768 + 1 * (x 1).val = (x 1).val; omega

/-- The image a block row belongs to: point t holds images 2t and 2t + 1. -/
def img (t : Fin cfg0.N) (p : Fin 2) : Fin 32 :=
  ⟨2 * t.val + p.val, by have h := t.isLt; have hN : cfg0.N = 16 := N_0; have := p.isLt; omega⟩

/-- Each block entry as an entry of an argument array. -/
theorem blk0_at (c : Dev nD) (t : Fin cfg0.N) (p : Fin 2) (ch : Fin 768) (k : Fin 1024) :
    (iblk m c 0 t : Vec Ideal S2x768x1024 .f32) (ix3 p ch k)
      = argX m c (ix4 (img t p) ch (Cert.Spec.row k) (Cert.Spec.col k)) := by
  rw [iblk0_apply m c t (ix3 p ch k) (ix3 (img t p) ch k) rfl rfl rfl, V_v0]
  exact shapeCast_abcd_abe_apply (argX m c) shapeCasts_S32x768x32x32_S32x768x1024 (by norm_num) (img t p) ch
    (Cert.Spec.row k) (Cert.Spec.col k) k (by
      show k.val = 32 * (k.val / 32) + k.val % 32
      omega)

theorem blk1_at (c : Dev nD) (t : Fin cfg0.N) (ch : Fin 768) (j : Fin 192) :
    (iblk m c 1 t : Vec Ideal S768x192 .bf16) (ix2 ch j) = argW1 m c (ix2 j ch) := by
  rw [iblk1_apply, V_v2]
  exact transpose_ix2_apply (argW1 m c) transposes_S192x768_S768x192_1_0 ch j

theorem blk2_at (c : Dev nD) (t : Fin cfg0.N) (j : Fin 192) :
    (iblk m c 2 t : Vec Ideal S1x192 .f32) (ix2 (0 : Fin 1) j) = argB1 m c (ix1 j) := by
  rw [iblk2_apply, V_v5]
  exact shapeCast_a_1a_apply (argB1 m c) shapeCasts_S192_S1x192 0 j

theorem blk3_at (c : Dev nD) (t : Fin cfg0.N) (j : Fin 192) (ch : Fin 768) :
    (iblk m c 3 t : Vec Ideal S192x768 .bf16) (ix2 j ch) = argW2 m c (ix2 ch j) := by
  rw [iblk3_apply, V_v4]
  exact transpose_ix2_apply (argW2 m c) transposes_S768x192_S192x768_1_0 j ch

theorem blk4_at (c : Dev nD) (t : Fin cfg0.N) (ch : Fin 768) :
    (iblk m c 4 t : Vec Ideal S1x768 .f32) (ix2 (0 : Fin 1) ch) = argB2 m c (ix1 ch) := by
  rw [iblk4_apply, V_v6]
  exact shapeCast_a_1a_apply (argB2 m c) shapeCasts_S768_S1x768 0 ch

/-! ## What each point writes back, and the whole array -/

/-- The result on the map with its two position axes merged, on core c. -/
abbrev res3 (c : Dev nD) : S32x768x1024.Idx → EReal :=
  Cert.Spec.G3 (argX m c) (argW1 m c) (argB1 m c) (argW2 m c) (argB2 m c)

theorem hz3 : (![0, 0, 0] : Fin 3 → Nat) = fun _ => 0 := funext fun a => by fin_cases a <;> rfl
theorem hz2 : (![0, 0] : Fin 2 → Nat) = fun _ => 0 := funext fun a => by fin_cases a <;> rfl

/-- The output block of point t starts at row 2t. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- What point t writes back is block t of the merged result. -/
theorem flushed_eq (c : Dev nD) (t : Fin cfg0.N) :
    (dats m 0 c).flushed 5 t = ((cfg0.win 5).blk t).view.read (Elt Ideal) (res3 m c) := by
  show (cfg0.win 5).cut (grid0.coords t) ((dats m 0 c).after 5 t) = _
  rw [after0_5]
  unfold out0_5
  rw [View.canon_unit_zero hz3]
  simp only [View.ld_unit_zero (S := S2x768x1024) hz3, View.ld_unit_zero (S := S768x192) hz2, View.ld_unit_zero (S := S1x192) hz2,
    View.ld_unit_zero (S := S192x768) hz2, View.ld_unit_zero (S := S1x768) hz2]
  obtain ⟨e0, e1, e2⟩ := idx5 t
  refine funext fun (j : S2x768x1024.Idx) => ?_
  obtain ⟨p, ch, l, rfl⟩ : ∃ (p : Fin 2) (ch : Fin 768) (l : Fin 1024), j = ix3 p ch l := ⟨j 0, j 1, j 2, eq_ix3 j⟩
  show k0_pay1 (F := Ideal) (iblk m c 0 t) (iblk m c 1 t) (iblk m c 2 t) (iblk m c 3 t) (iblk m c 4 t) (ix3 p ch l)
      = res3 m c (((cfg0.win 5).blk t).view.emb (ix3 p ch l))
  have he : ((cfg0.win 5).blk t).view.emb (ix3 p ch l) = ix3 (img t p) ch l := by
    funext a
    apply Fin.ext
    match a with
    | ⟨0, _⟩ => show win0_5.index t (0 : Fin 3) * 2 + 1 * p.val = 2 * t.val + p.val; omega
    | ⟨1, _⟩ => show win0_5.index t (1 : Fin 3) * 768 + 1 * ch.val = ch.val; omega
    | ⟨2, _⟩ => show win0_5.index t (2 : Fin 3) * 1024 + 1 * l.val = l.val; omega
  rw [he]
  refine (Body.pay_apply (iblk m c 0 t) (iblk m c 1 t) (iblk m c 2 t) (iblk m c 3 t) (iblk m c 4 t) p ch l).trans ?_
  show _ = argX m c (ix4 (img t p) ch (Cert.Spec.row l) (Cert.Spec.col l))
      * Cert.Spec.gate (argX m c) (argW1 m c) (argB1 m c) (argW2 m c) (argB2 m c) (img t p) ch
  rw [blk0_at m c t p ch l,
    Body.bgate_eq (iblk m c 0 t) (iblk m c 1 t) (iblk m c 2 t) (iblk m c 3 t) (iblk m c 4 t)
      (argX m c) (argW1 m c) (argB1 m c) (argW2 m c) (argB2 m c) p (img t p)
      (fun ch k => blk0_at m c t p ch k) (fun ch j => blk1_at m c t ch j) (fun j => blk2_at m c t j)
      (fun j ch => blk3_at m c t j ch) (fun ch => blk4_at m c t ch) ch]

/-- An index is in point t's block iff each coordinate is in the block's range on its axis. -/
theorem mem_blk5 (t : Fin cfg0.N) (i : S32x768x1024.Idx) :
    i ∈ ((cfg0.win 5).blk t).view.set ↔ ∀ a : Fin 3, win0_5.index t a * S2x768x1024.size a ≤ (i a).val
      ∧ (i a).val < win0_5.index t a * S2x768x1024.size a + S2x768x1024.size a := by
  show i ∈ ((View.whole main_v7).slice (win0_5.rect t)).set ↔ _
  rw [View.set_slice_whole, Rect.mem_set_unit]
  exact Iff.rfl

/-- The sixteen blocks tile the array: row r lies in the block of point r / 2. -/
theorem cover5 (i : S32x768x1024.Idx) :
    ∃ t : Fin cfg0.N, (cfg0.win 5).flush t = true ∧ i ∈ ((cfg0.win 5).blk t).view.set := by
  have hi0 : (i 0).val < 32 := (i 0).isLt
  have hi1 : (i 1).val < 768 := (i 1).isLt
  have hi2 : (i 2).val < 1024 := (i 2).isLt
  have hN : cfg0.N = 16 := N_0
  refine ⟨⟨(i 0).val / 2, by rw [hN]; omega⟩, flush0_5 _, ?_⟩
  rw [mem_blk5]
  obtain ⟨e0, e1, e2⟩ := idx5 ⟨(i 0).val / 2, by rw [hN]; omega⟩
  intro a
  match a with
  | ⟨0, _⟩ =>
    show win0_5.index _ (0 : Fin 3) * 2 ≤ (i 0).val ∧ (i 0).val < win0_5.index _ (0 : Fin 3) * 2 + 2
    rw [e0]; show (i 0).val / 2 * 2 ≤ (i 0).val ∧ (i 0).val < (i 0).val / 2 * 2 + 2; omega
  | ⟨1, _⟩ =>
    show win0_5.index _ (1 : Fin 3) * 768 ≤ (i 1).val ∧ (i 1).val < win0_5.index _ (1 : Fin 3) * 768 + 768
    rw [e1]; omega
  | ⟨2, _⟩ =>
    show win0_5.index _ (2 : Fin 3) * 1024 ≤ (i 2).val ∧ (i 2).val < win0_5.index _ (2 : Fin 3) * 1024 + 1024
    rw [e2]; omega

/-- So the launch leaves the merged result in its output array. -/
theorem final5 (c : Dev nD) : (dats m 0 c).arrAt 5 cfg0.N = res3 m c :=
  (dats m 0 c).arrAt_eq_of_cover 5 (res3 m c) (fun t _ => flushed_eq m c t) (cover5)

/-! ## The reshape after the launch, and the run -/

/-- The result on core c. -/
abbrev res (c : Dev nD) : S32x768x32x32.Idx → EReal :=
  Cert.Spec.G (argX m c) (argW1 m c) (argB1 m c) (argW2 m c) (argB2 m c)

/-- Splitting the position axis again: position number 32 · h + w of the merged result is entry (h, w). -/
theorem unmerge (c : Dev nD) :
    shapeCast S32x768x32x32 (res3 m c) shapeCasts_S32x768x1024_S32x768x32x32 = res m c := by
  refine funext fun (i : S32x768x32x32.Idx) => ?_
  obtain ⟨n, ch, h, w, rfl⟩ : ∃ (n : Fin 32) (ch : Fin 768) (h : Fin 32) (w : Fin 32), i = ix4 n ch h w :=
    ⟨i 0, i 1, i 2, i 3, eq_ix4 i⟩
  have hlt : 32 * h.val + w.val < 1024 := by have := h.isLt; have := w.isLt; omega
  rw [Cert.Lib.TrailingAxis.shapeCast_abe_abcd_apply (res3 m c) shapeCasts_S32x768x1024_S32x768x32x32 (by norm_num) n ch h w
    ⟨32 * h.val + w.val, hlt⟩ rfl]
  have hr : Cert.Spec.row ⟨32 * h.val + w.val, hlt⟩ = h :=
    Fin.ext (by show (32 * h.val + w.val) / 32 = h.val; have := w.isLt; omega)
  have hc : Cert.Spec.col ⟨32 * h.val + w.val, hlt⟩ = w :=
    Fin.ext (by show (32 * h.val + w.val) % 32 = w.val; have := w.isLt; omega)
  show argX m c (ix4 n ch (Cert.Spec.row ⟨32 * h.val + w.val, hlt⟩) (Cert.Spec.col ⟨32 * h.val + w.val, hlt⟩))
      * Cert.Spec.gate (argX m c) (argW1 m c) (argB1 m c) (argW2 m c) (argB2 m c) n ch
    = argX m c (ix4 n ch h w) * Cert.Spec.gate (argX m c) (argW1 m c) (argB1 m c) (argW2 m c) (argB2 m c) n ch
  rw [hr, hc]

/-- The program's result: the one host operation after the launch reshapes the array the launch left. -/
theorem tail_v8 (c : Dev nD) :
    (Pipeline.afterTail₀ cfgs (dats m) 0 (V0 m) [hostOps1] c main_v8 : S32x768x32x32.Idx → EReal) = res m c := by
  unfold Pipeline.afterTail₀
  show StableHlo.after hostOps1 _ (Proc.devRef .tc main_v8) = _
  after_results
  have hw : (Pipeline.withArrays (cfgs 0).spec c (V0 m c) (fun w => (dats m 0 c).arrAt w (cfgs 0).N)
      (Proc.devRef .tc main_v7) : S32x768x1024.Idx → EReal) = res3 m c :=
    (Pipeline.withArrays_arr spec0 launch0.win.arr_inj c (V0 m c) (fun w => (dats m 0 c).arrAt w cfg0.N) 5).trans (final5 m c)
  refine funext fun i => ?_
  show shapeCast S32x768x32x32 (Pipeline.withArrays (cfgs 0).spec c (V0 m c) (fun w => (dats m 0 c).arrAt w (cfgs 0).N)
      (Proc.devRef .tc main_v7)) shapeCasts_S32x768x1024_S32x768x32x32 i = _
  rw [hw, unmerge]

variable (ρ : Dev nD → PrngReg)

/-- The run, read: every weakly fair execution ends with the result array at the squeeze-and-excitation function of
    the argument arrays, and the argument arrays as they were. -/
theorem run : θ_run defs (onTc (τ := τ) (main (F := Ideal))) ⟨m, fun _ => 0, ρ⟩ (fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.LibReduceLastTwo.lean ====
/-
  A sum over the last two axes of a four-axis array, read as ONE sum over a row-major numbering of those axes.

  For an array x of shape a × b × c × d, summing over the third and fourth axes leaves an a × b array whose entry
  at (i, j) is the sum of x over every index whose first two coordinates are i and j. Those indices are exactly
  (i, j, r, q) with r < c and q < d, and the map k ↦ (i, j, k / d, k % d) lists them once each as k runs through
  the c · d numbers below c · d: it is the row-major numbering k = d · r + q of the c × d grid, read backwards.
  So the entry is the initial value plus ∑ₖ x(i, j, k / d, k % d).

  Only the re-indexing of a finite sum is used, which holds in every additive commutative monoid; on the extended
  reals it is therefore sound at the infinities too.
-/
import Idealize.ShloMosaic.PureOps.Ideal.Laws
import Idealize.ShloMosaic.Lib.ValueIdx

noncomputable section

namespace Cert.Lib.ReduceLastTwo

open Idealize.ShloMosaic Idealize.ShloMosaic.ValueIdx

variable {a b c d : Nat}

/-- Dropping the last two coordinates of a four-axis index (t₀, t₁, t₂, t₃) leaves (t₀, t₁). -/
theorem drop_lastTwo (h : (⟨4, ![a, b, c, d]⟩ : Shape).ReducesTo [2, 3] ⟨2, ![a, b]⟩)
    (t : (⟨4, ![a, b, c, d]⟩ : Shape).Idx) :
    h.drop t = ix2 (n0 := a) (n1 := b) (t 0) (t 1) := by
  funext e
  match e with
  | ⟨0, _⟩ => exact Fin.ext rfl
  | ⟨1, _⟩ => exact Fin.ext rfl

/-- The indices that drop to (i, j) are the (i, j, r, q): the sum over that fibre is the sum over all pairs (r, q).
    The pair of a fibre index is its last two coordinates, and the two maps are inverse to each other. -/
theorem sum_fibre (h : (⟨4, ![a, b, c, d]⟩ : Shape).ReducesTo [2, 3] ⟨2, ![a, b]⟩)
    (x : (⟨4, ![a, b, c, d]⟩ : Shape).Idx → EReal) (i : Fin a) (j : Fin b) :
    ∑ t ∈ Finset.univ.filter (fun t => h.drop t = ix2 i j), x t
      = ∑ p : Fin c × Fin d, x (ix4 i j p.1 p.2) := by
  symm
  refine Finset.sum_nbij' (fun p => ix4 i j p.1 p.2) (fun t => (t 2, t 3)) ?_ ?_ ?_ ?_ ?_
  · intro p _
    rw [Finset.mem_filter]
    exact ⟨Finset.mem_univ _, drop_lastTwo h _⟩
  · intro t _; exact Finset.mem_univ _
  · intro p _; rfl
  · intro t ht
    rw [Finset.mem_filter, drop_lastTwo] at ht
    have h0 : t 0 = i := congrFun ht.2 0
    have h1 : t 1 = j := congrFun ht.2 1
    funext e
    match e with
    | ⟨0, _⟩ => exact h0.symm
    | ⟨1, _⟩ => exact h1.symm
    | ⟨2, _⟩ => rfl
    | ⟨3, _⟩ => rfl
  · intro p _; rfl

/-- A sum over the pairs (r, q) of a c × d grid is the sum over the numbers k below c · d of the term at
    (k / d, k % d): the row-major numbering k = d · r + q is a bijection between the pairs and those numbers, and
    k ↦ (k / d, k % d) is its inverse. -/
theorem sum_grid {M : Type*} [AddCommMonoid M] (f : Fin c → Fin d → M) :
    ∑ p : Fin c × Fin d, f p.1 p.2 = ∑ k : Fin (c * d), f k.divNat k.modNat := by
  rw [← Equiv.sum_comp finProdFinEquiv.symm]
  rfl

/-- The sum over the last two axes, read at (i, j): the initial value plus the sum over the m = c · d position
    numbers k of the entry at (i, j, k / d, k % d). The two bounds k / d < c and k % d < d are taken as given, in
    whatever form the caller has them, so that the right-hand side is literally the caller's sum. -/
theorem hostReduceAdd_lastTwo {m : Nat} (hm : m = c * d)
    (h : (⟨4, ![a, b, c, d]⟩ : Shape).ReducesTo [2, 3] ⟨2, ![a, b]⟩)
    (x : (⟨4, ![a, b, c, d]⟩ : Shape).Idx → EReal) (init : EReal) (i : Fin a) (j : Fin b)
    (hr : ∀ k : Fin m, k.val / d < c) (hq : ∀ k : Fin m, k.val % d < d) :
    Ideal.hostReduceAdd h x init (ix2 i j)
      = init + ∑ k : Fin m, x (ix4 i j ⟨k.val / d, hr k⟩ ⟨k.val % d, hq k⟩) := by
  subst hm
  unfold Ideal.hostReduceAdd
  rw [sum_fibre h x i j, sum_grid (fun r q => x (ix4 i j r q))]
  rfl

/-- The same with the row and the column of a position number named by the caller: for any two functions whose
    values are k / d and k % d, the entry at (i, j) is the initial value plus ∑ₖ x(i, j, row k, col k). -/
theorem hostReduceAdd_lastTwo_of {m : Nat} (hm : m = c * d)
    (h : (⟨4, ![a, b, c, d]⟩ : Shape).ReducesTo [2, 3] ⟨2, ![a, b]⟩)
    (x : (⟨4, ![a, b, c, d]⟩ : Shape).Idx → EReal) (init : EReal) (i : Fin a) (j : Fin b)
    (row : Fin m → Fin c) (col : Fin m → Fin d)
    (hrow : ∀ k, (row k).val = k.val / d) (hcol : ∀ k, (col k).val = k.val % d) :
    Ideal.hostReduceAdd h x init (ix2 i j) = init + ∑ k : Fin m, x (ix4 i j (row k) (col k)) := by
  rw [hostReduceAdd_lastTwo hm h x init i j (fun k => hrow k ▸ (row k).isLt) (fun k => hcol k ▸ (col k).isLt)]
  congr 1
  refine Finset.sum_congr rfl fun k _ => ?_
  congr 2
  · exact Fin.ext (hrow k).symm
  · exact Fin.ext (hcol k).symm

end Cert.Lib.ReduceLastTwo

end
-- ==== Proof.RefValue.lean ====
/-
  The reference program's result, stage by stage, is the squeeze-and-excitation gate applied to the feature map.

  Each host operation of the reference, read at one index on the extended reals, is one step of the specification:
    • the sum over the two position axes, read through the row-major numbering of the 32 × 32 positions, is the
      pooled sum of a channel; dividing it by 1024 is multiplying it by 1/1024, at the infinities too, which is
      the channel's mean;
    • the first product with the transposed weights, plus the bias broadcast along the images, is the first
      layer; the quotient 1 / (1 + e⁻ᶻ) is the logistic function σ(z), so z · (1 / (1 + e⁻ᶻ)) is the swish;
    • the second product and bias are the second layer, and σ of it is the gate of a channel of an image;
    • the gate, broadcast over the 32 × 32 positions, times the feature map is the result.
  Every step is an equality of extended reals that holds for all values, finite or not: sums are re-indexed, never
  re-associated; the division by 1024 is by a non-zero real; σ is unfolded by its definition.
-/
import proofs.«110447_j79139067396494_2_alg».proof.Proof.Gen.ReferenceIdeal.Read
import proofs.«110447_j79139067396494_2_alg».proof.Proof.Spec
import proofs.«110447_j79139067396494_2_alg».proof.Proof.Consts
import proofs.«110447_j79139067396494_2_alg».proof.Proof.LibReduceLastTwo

noncomputable section

namespace Cert.ReferenceIdeal.RefValue

open Cert.ReferenceIdeal Cert.ReferenceIdeal.Gen Cert.ReferenceIdeal.Read Idealize.ShloMosaic Idealize.ShloMosaic.ValueIdx

/-- The quotient 1 / (1 + e⁻ᶻ), as the reference spells it with the constant 1 and the host's negation, exponential,
    sum and quotient, is the logistic function of z. -/
theorem logistic_spelled (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  rw [Ideal.ofBits_def, Cert.Consts.ofBits_one]
  rfl

/-- The sum over the two position axes at (n, c) is the pooled sum of channel c of image n: the initial value is
    zero, and the 1024 positions are numbered row-major. -/
theorem v0_apply (x0 : (⟨S32x768x32x32, .f32⟩ : BufTy).Contents (Elt Ideal)) (n : Fin 32) (c : Fin 768) :
    val_main_v0 (F := Ideal) x0 (ix2 n c) = Cert.Spec.pooled x0 n c := by
  have e := Cert.Lib.ReduceLastTwo.hostReduceAdd_lastTwo_of (a := 32) (b := 768) (c := 32) (d := 32) (m := 1024) (by norm_num)
    reducesTo_S32x768x32x32_S32x768_d2_3 x0 (Ideal.ofBits .f32 0x00000000#32) n c Cert.Spec.row Cert.Spec.col
    (fun _ => rfl) (fun _ => rfl)
  rw [Ideal.ofBits_zero_f32, zero_add] at e
  show Ideal.hostReduceAdd reducesTo_S32x768x32x32_S32x768_d2_3 x0 (Ideal.ofBits .f32 0x00000000#32) (ix2 n c) = _
  rw [Ideal.ofBits_zero_f32]
  exact e

/-- The sum divided by 1024 is the channel's mean: division by the non-zero real 1024 is the product with 1/1024
    for every extended real. -/
theorem v2_apply (x0 : (⟨S32x768x32x32, .f32⟩ : BufTy).Contents (Elt Ideal)) (n : Fin 32) (c : Fin 768) :
    val_main_v2 (F := Ideal) x0 (ix2 n c) = Cert.Spec.squeeze x0 n c := by
  rw [val_main_v2_apply, v0_apply, val_main_v1_apply, val_main_cst_0_apply, Ideal.hostDivf_def, Ideal.ofBits_def,
    Cert.Consts.ofBits_1024, Ideal.div_coe (y := 1024) (by norm_num)]
  rfl

/-- The first layer before its activation: the product of the means with the transposed first weights, plus the first
    bias broadcast along the images. -/
theorem v7_apply (x0 : (⟨S32x768x32x32, .f32⟩ : BufTy).Contents (Elt Ideal)) (x1 : (⟨S192x768, .f32⟩ : BufTy).Contents (Elt Ideal))
    (x2 : (⟨S192, .f32⟩ : BufTy).Contents (Elt Ideal)) (n : Fin 32) (j : Fin 192) :
    val_main_v7 (F := Ideal) x0 x1 x2 (ix2 n j) = Cert.Spec.pre1 x0 x1 x2 n j := by
  have e6 : idx_main_v5 (idx_main_v6 (ix2 n j)) = ix1 j := funext fun a => Fin.ext (by match a with | ⟨0, _⟩ => rfl)
  rw [val_main_v7_apply, val_main_v4_apply, val_main_v6_apply, val_main_v5_apply, e6, Ideal.addf_def]
  unfold Cert.Spec.pre1
  congr 1
  refine Finset.sum_congr rfl fun k _ => ?_
  have el : lidx_main_v4 (ix2 n j) k = ix2 n k :=
    funext fun a => Fin.ext (by match a with | ⟨0, _⟩ => rfl | ⟨1, _⟩ => rfl)
  have er : idx_main_v3 (ridx_main_v4 (ix2 n j) k) = ix2 j k :=
    funext fun a => Fin.ext (by match a with | ⟨0, _⟩ => rfl | ⟨1, _⟩ => rfl)
  rw [el, v2_apply, val_main_v3_apply, er]

/-- The first layer after its activation: z · (1 / (1 + e⁻ᶻ)) is the swish z · σ(z). -/
theorem v14_apply (x0 : (⟨S32x768x32x32, .f32⟩ : BufTy).Contents (Elt Ideal)) (x1 : (⟨S192x768, .f32⟩ : BufTy).Contents (Elt Ideal))
    (x2 : (⟨S192, .f32⟩ : BufTy).Contents (Elt Ideal)) (n : Fin 32) (j : Fin 192) :
    val_main_v14 (F := Ideal) x0 x1 x2 (ix2 n j) = Cert.Spec.hidden x0 x1 x2 n j := by
  rw [val_main_v14_apply, val_main_v13_apply, val_main_v12_apply, val_main_cst_2_apply, val_main_v11_apply,
    val_main_v10_apply, val_main_cst_1_apply, val_main_v9_apply, val_main_v8_apply, v7_apply, logistic_spelled,
    Ideal.mulf_def]
  rfl

/-- The second layer before the logistic function: the product of the hidden layer with the transposed second
    weights, plus the second bias broadcast along the images. -/
theorem v19_apply (x0 : (⟨S32x768x32x32, .f32⟩ : BufTy).Contents (Elt Ideal)) (x1 : (⟨S192x768, .f32⟩ : BufTy).Contents (Elt Ideal))
    (x2 : (⟨S192, .f32⟩ : BufTy).Contents (Elt Ideal)) (x3 : (⟨S768x192, .f32⟩ : BufTy).Contents (Elt Ideal))
    (x4 : (⟨S768, .f32⟩ : BufTy).Contents (Elt Ideal)) (n : Fin 32) (c : Fin 768) :
    val_main_v19 (F := Ideal) x0 x1 x2 x3 x4 (ix2 n c) = Cert.Spec.pre2 x0 x1 x2 x3 x4 n c := by
  have e18 : idx_main_v17 (idx_main_v18 (ix2 n c)) = ix1 c := funext fun a => Fin.ext (by match a with | ⟨0, _⟩ => rfl)
  rw [val_main_v19_apply, val_main_v16_apply, val_main_v18_apply, val_main_v17_apply, e18, Ideal.addf_def]
  unfold Cert.Spec.pre2
  congr 1
  refine Finset.sum_congr rfl fun k _ => ?_
  have el : lidx_main_v16 (ix2 n c) k = ix2 n k :=
    funext fun a => Fin.ext (by match a with | ⟨0, _⟩ => rfl | ⟨1, _⟩ => rfl)
  have er : idx_main_v15 (ridx_main_v16 (ix2 n c) k) = ix2 c k :=
    funext fun a => Fin.ext (by match a with | ⟨0, _⟩ => rfl | ⟨1, _⟩ => rfl)
  rw [el, v14_apply, val_main_v15_apply, er]

/-- The gate of a channel of an image: 1 / (1 + e⁻ᶻ) of the second layer is its logistic function. -/
theorem v25_apply (x0 : (⟨S32x768x32x32, .f32⟩ : BufTy).Contents (Elt Ideal)) (x1 : (⟨S192x768, .f32⟩ : BufTy).Contents (Elt Ideal))
    (x2 : (⟨S192, .f32⟩ : BufTy).Contents (Elt Ideal)) (x3 : (⟨S768x192, .f32⟩ : BufTy).Contents (Elt Ideal))
    (x4 : (⟨S768, .f32⟩ : BufTy).Contents (Elt Ideal)) (n : Fin 32) (c : Fin 768) :
    val_main_v25 (F := Ideal) x0 x1 x2 x3 x4 (ix2 n c) = Cert.Spec.gate x0 x1 x2 x3 x4 n c := by
  rw [val_main_v25_apply, val_main_v24_apply, val_main_cst_4_apply, val_main_v23_apply, val_main_v22_apply,
    val_main_cst_3_apply, val_main_v21_apply, val_main_v20_apply, v19_apply, logistic_spelled]
  rfl

/-- The reference's result is the specification: at every index the feature map's entry times the gate of its
    channel and image, the gate having been broadcast over the 32 × 32 positions. -/
theorem ref_is_G (x0 : (⟨S32x768x32x32, .f32⟩ : BufTy).Contents (Elt Ideal)) (x1 : (⟨S192x768, .f32⟩ : BufTy).Contents (Elt Ideal)) (x2 : (⟨S192, .f32⟩ : BufTy).Contents (Elt Ideal)) (x3 : (⟨S768x192, .f32⟩ : BufTy).Contents (Elt Ideal)) (x4 : (⟨S768, .f32⟩ : BufTy).Contents (Elt Ideal)) :
    Cert.ReferenceIdeal.Read.val_main_v28 (F := Ideal) x0 x1 x2 x3 x4 = Cert.Spec.G x0 x1 x2 x3 x4 := by
  funext i
  obtain ⟨n, c, r, q, rfl⟩ : ∃ (n : Fin 32) (c : Fin 768) (r q : Fin 32), i = ix4 n c r q :=
    ⟨i 0, i 1, i 2, i 3, eq_ix4 i⟩
  have e : idx_main_v26 (idx_main_v27 (ix4 n c r q)) = ix2 n c :=
    funext fun a => Fin.ext (by match a with | ⟨0, _⟩ => rfl | ⟨1, _⟩ => rfl)
  rw [val_main_v28_apply, val_main_v27_apply, val_main_v26_apply, e, v25_apply, Ideal.mulf_def]
  rfl

end Cert.ReferenceIdeal.RefValue

end
-- ==== Proof.lean ====
/-
  The kernel computes the squeeze-and-excitation gate of its reference, as extended reals.

  Reference: for a feature map x of 32 images × 768 channels × 32 × 32 positions, the channel means
  s = mean(x) over the positions, z₁ = s · w₁ᵀ + b₁, h = z₁ · σ(z₁), g = σ(h · w₂ᵀ + b₂), and the result x · g with g
  repeated over the positions (σ the logistic function). Kernel: the same, sixteen grid points of two images each,
  on the map with its position axes merged into one axis of 1024; the mean taken as the sum times 2⁻¹⁰ instead
  of divided by 1024; the weights transposed and narrowed to bf16 on the host; σ as one operation where the
  reference spells 1 / (1 + e⁻ᶻ).

  Read as exact numbers the two are one function of the five arrays (Proof/Spec.lean), index by index:
    • a change of float format is the identity, and a matrix product accumulated into zero is the sum of the
      products over the contracted axis on both sides;
    • the reference's sum over the two position axes of (n, c) and the kernel's lane sum over the merged axis
      both run over the 1024 entries (n, c, k / 32, k % 32): a finite sum re-indexed along a bijection, which is
      sound on the extended reals whatever the entries are;
    • the pattern of 2⁻¹⁰ denotes 1/1024 exactly, and dividing ANY extended real by the real 1024 is multiplying
      it by 1/1024, so no finiteness of the sum is needed;
    • the logistic function is by definition the quotient 1 / (1 + e⁻ᶻ) with the quotient's and the exponential's
      conventions at the infinities, the same on both sides.
  So the precondition (finite inputs) is never opened. The kernel's side is read off its run (Proof/KernelValue.lean
  over Proof/KernelBody.lean and Proof/BlockSpec.lean), the reference's off its run one operation at a time
  (Proof/RefValue.lean); the idealization rewrote no operation, so that claim is trivial; the three frames are the
  programs' runs with the result dropped.
-/
import proofs.«110447_j79139067396494_2_alg».proof.Defs
import proofs.«110447_j79139067396494_2_alg».proof.Proof.Gen.Kernel
import proofs.«110447_j79139067396494_2_alg».proof.Proof.Gen.Kernel.Frame
import proofs.«110447_j79139067396494_2_alg».proof.Proof.Gen.KernelIdeal
import proofs.«110447_j79139067396494_2_alg».proof.Proof.Gen.KernelIdeal.Frame
import proofs.«110447_j79139067396494_2_alg».proof.Proof.Gen.ReferenceIdeal
import proofs.«110447_j79139067396494_2_alg».proof.Proof.Gen.ReferenceIdeal.Run
import proofs.«110447_j79139067396494_2_alg».proof.Proof.Gen.ReferenceIdeal.Read
import proofs.«110447_j79139067396494_2_alg».proof.Proof.Gen.Pre_finite_inputs
import proofs.«110447_j79139067396494_2_alg».proof.Proof.KernelValue
import proofs.«110447_j79139067396494_2_alg».proof.Proof.RefValue
import Idealize.ShloMosaic.Adequacy
import Idealize.ShloMosaic.Init

noncomputable section

namespace Cert.Proof

open Idealize.ShloMosaic Idealize.SL.Sem

/-- The three frames: each program runs, and its argument arrays end as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on exact numbers: no operation was rewritten. -/
theorem preserves : Cert.preserves_Kernel_KernelIdeal := trivial

/-- From memories that agree on the five arguments both programs end with the result array at one and the same
    function of them. -/
theorem algebraic : Cert.algebraic_KernelIdeal_ReferenceIdeal := by
  intro m ρ m' ρ' _ hagree
  refine ⟨fun c => Cert.KernelIdeal.KValue.res m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v28_eq (F := Ideal) _ _ _ _ _).trans (Cert.ReferenceIdeal.RefValue.ref_is_G _ _ _ _ _)).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
